-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128 .f32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S5000x128 : Shape := ⟨2, ![5000, 128]⟩
abbrev S1x128 : Shape := ⟨2, ![1, 128]⟩
abbrev S5000 : Shape := ⟨1, ![5000]⟩
abbrev S5000x1 : Shape := ⟨2, ![5000, 1]⟩

abbrev nBuf : Space → Nat
  | .hbm => 39
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000x1, .f32⟩
  | .hbm, ⟨27, _⟩ => ⟨S_, .f32⟩
  | .hbm, ⟨28, _⟩ => ⟨S100000x1, .f32⟩
  | .hbm, ⟨29, _⟩ => ⟨S1600000x1, .i32⟩
  | .hbm, ⟨30, _⟩ => ⟨S100000x1, .f32⟩
  | .hbm, ⟨31, _⟩ => ⟨S_, .f32⟩
  | .hbm, ⟨32, _⟩ => ⟨S100000x1, .f32⟩
  | .hbm, ⟨33, _⟩ => ⟨S100000x1, .f32⟩
  | .hbm, ⟨34, _⟩ => ⟨S100000x128, .f32⟩
  | .hbm, ⟨35, _⟩ => ⟨S100000x128, .f32⟩
  | .hbm, ⟨36, _⟩ => ⟨S128x128, .f32⟩
  | .hbm, ⟨37, _⟩ => ⟨S128x128, .f32⟩
  | .hbm, ⟨38, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S5000x128, .f32⟩
  | .local _ .vmem, ⟨11, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S100000x128.size a
  hwx0_8 : ∀ i : grid0.Coords, EltTy.bits .f32 = 32 ∨ (Rect.block (s := S100000x128) S5000x128.size (cc0_transform_8 i) (hinb0_8 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S100000 : Shape := ⟨1, ![100000]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S128x128, .f32⟩
  | .hbm, ⟨13, _⟩ => ⟨S100000x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x128, .f32⟩
  | .hbm, ⟨26, _⟩ => ⟨S_, .f32⟩
  | .hbm, ⟨27, _⟩ => ⟨S100000x128, .f32⟩
  | .hbm, ⟨28, _⟩ => ⟨S1600000x1, .i32⟩
  | .hbm, ⟨29, _⟩ => ⟨S100000x128, .f32⟩
  | .hbm, ⟨30, _⟩ => ⟨S_, .f32⟩
  | .hbm, ⟨31, _⟩ => ⟨S1600000x1, .f32⟩
  | .hbm, ⟨32, _⟩ => ⟨S_, .f32⟩
  | .hbm, ⟨33, _⟩ => ⟨S100000x1, .f32⟩
  | .hbm, ⟨34, _⟩ => ⟨S1600000x1, .i32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S100000x128, .f32⟩
  | .hbm, ⟨49, _⟩ => ⟨S100000x128, .f32⟩
  | .hbm, ⟨50, _⟩ => ⟨S_, .f32⟩
  | .hbm, ⟨51, _⟩ => ⟨S100000, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S_, .f32⟩
  | .hbm, ⟨60, _⟩ => ⟨S100000, .f32⟩
  | .hbm, ⟨61, _⟩ => ⟨S100000x1, .f32⟩
  | .hbm, ⟨62, _⟩ => ⟨S_, .f32⟩
  | .hbm, ⟨63, _⟩ => ⟨S100000x1, .f32⟩
  | .hbm, ⟨64, _⟩ => ⟨S100000x1, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x1, .f32⟩
  | .hbm, ⟨69, _⟩ => ⟨S100000x1, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_call0_cst : Ref sig .tc := ⟨.hbm, 47, rfl⟩
abbrev main_call0_v0 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_6 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_8 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.NodeLayer.lean ====
/-
  The layer, one node at a time.

  A node's output row is a function of its own feature row x, the mean row n of its neighbours' features, two weight
  matrices given input-feature-major (entry (k, j) takes input feature k to output feature j), two bias vectors, and
  the normalisation's scale g and shift b:

    a_j   = max ((Σ_k x_k · Ws_{k j} + bs_j) + (Σ_k n_k · Wa_{k j} + ba_j), 0)
    μ     = (Σ_l a_l) / 128
    v     = (Σ_l (a_l − μ) · (a_l − μ)) / 128
    out_j = (a_j − μ) · rsqrt (v + ε) · g_j + b_j

  on the extended reals: the quotient and the reciprocal square root are those of the exact reading of the floats, and
  the two constants (128 and ε) are kept as the binary words that both programs write, so they are never evaluated.
  Both programs compute exactly this expression, sums and products grouped exactly so; no law that needs the entries
  to be finite (distributivity, cancelling) is used anywhere, so the entries range over all extended reals.
-/
import Idealize.ShloMosaic.PureOps.Ideal
import Idealize.ShloMosaic.Lib.ValueIdx

noncomputable section

open scoped BigOperators

namespace Cert.NodeLayer

open Idealize.ShloMosaic Idealize.ShloMosaic.ValueIdx

/-- The feature count as a float, 128.0: the divisor of both means. -/
def width : EReal := Ideal.ofBits .f32 0x43000000#32

/-- The normalisation's ε, the float nearest 1e-5. -/
def eps : EReal := Ideal.ofBits .f32 0x3727C5AC#32

/-- The activation before normalisation: the node's own linear map plus the neighbourhood's, clipped below at zero. -/
def act (x n : Fin 128 → EReal) (Ws Wa : Fin 128 → Fin 128 → EReal) (bs ba : Fin 128 → EReal) (j : Fin 128) : EReal :=
  max (((∑ k : Fin 128, x k * Ws k j) + bs j) + ((∑ k : Fin 128, n k * Wa k j) + ba j)) 0

/-- The mean of a row of 128 entries. -/
def rowMean (a : Fin 128 → EReal) : EReal := Ideal.div (∑ l : Fin 128, a l) width

/-- The row normalised: centred, scaled by the reciprocal root of the mean squared deviation plus ε, then g · + b. -/
def normalised (a g b : Fin 128 → EReal) (j : Fin 128) : EReal :=
  (a j - rowMean a) * Ideal.rsqrt (Ideal.div (∑ l : Fin 128, (a l - rowMean a) * (a l - rowMean a)) width + eps) * g j + b j

/-- A node's output at feature j. -/
def nodeOut (x n : Fin 128 → EReal) (Ws Wa : Fin 128 → Fin 128 → EReal) (bs ba g b : Fin 128 → EReal) (j : Fin 128) : EReal :=
  normalised (act x n Ws Wa bs ba) g b j

/-- Matrices and vectors as the programs hold them: functions of a shape's index. -/
abbrev Mat (r c : ℕ) : Type := (⟨2, ![r, c]⟩ : Shape).Idx → EReal
abbrev Row (c : ℕ) : Type := (⟨1, ![c]⟩ : Shape).Idx → EReal

/-- The layer over R nodes at entry (r, j): node r's output at feature j, from row r of the features X and of the
    neighbourhood means N. -/
def layerAt {R : ℕ} (X N : Mat R 128) (Ws Wa : Mat 128 128) (bs ba g b : Row 128) (r : Fin R) (j : Fin 128) : EReal :=
  nodeOut (fun k => X (ix2 r k)) (fun k => N (ix2 r k)) (fun k j => Ws (ix2 k j)) (fun k j => Wa (ix2 k j))
    (fun j => bs (ix1 j)) (fun j => ba (ix1 j)) (fun j => g (ix1 j)) (fun j => b (ix1 j)) j

/-- The layer's whole output matrix. -/
def layer {R : ℕ} (X N : Mat R 128) (Ws Wa : Mat 128 128) (bs ba g b : Row 128) : Mat R 128 :=
  fun i => layerAt X N Ws Wa bs ba g b (i 0) (i 1)

theorem layer_ix2 {R : ℕ} (X N : Mat R 128) (Ws Wa : Mat 128 128) (bs ba g b : Row 128) (r : Fin R) (j : Fin 128) :
    layer X N Ws Wa bs ba g b (ix2 r j) = layerAt X N Ws Wa bs ba g b r j := rfl

end Cert.NodeLayer

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibAxisReduce.lean ====
/-
  A matrix reduced along one of its two axes, read at a coordinate, at the exact (extended-real) reading of the floats.

  For an a × b matrix M: the sum over the rows (axis 0) at column n is Σ_r M[r, n]; the sum over the columns (axis 1)
  at row r is Σ_c M[r, c]; and the maximum over the rows at column n is the running maximum of M[·, n] from the
  accumulator's value. These are the library's one-axis reduction laws with the inserted index written by coordinates,
  stated for any extents a and b.
-/
import Idealize.ShloMosaic.PureOps.Ideal.Laws
import Idealize.ShloMosaic.Lib.ValueIdx

noncomputable section

open scoped BigOperators

namespace Cert.LibAxisReduce

open Idealize.ShloMosaic Idealize.ShloMosaic.ValueIdx

variable {a b : ℕ} {φ : FTy}

/-- Sum over the rows of an a × b matrix, at column n. -/
theorem add_rows_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (n : Fin b) :
    multiReduction .add [0] ⟨1, ![b]⟩ src acc h hφ hacc (ix1 n) = ∑ r : Fin a, src (ix2 r n) :=
  (Ideal.multiReduction_add_single src acc h hφ hacc (ix1 n)).trans
    (Finset.sum_congr rfl fun r _ => congrArg src
      (funext fun ax => Fin.ext (by match ax with | ⟨0, _⟩ => rfl | ⟨1, _⟩ => rfl)))

/-- Sum over the columns of an a × b matrix, at row r. -/
theorem add_cols_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ c : Fin b, src (ix2 r c) :=
  (Ideal.multiReduction_add_single src acc h hφ hacc (ix1 r)).trans
    (Finset.sum_congr rfl fun c _ => congrArg src
      (funext fun ax => Fin.ext (by match ax with | ⟨0, _⟩ => rfl | ⟨1, _⟩ => rfl)))

/-- Maximum over the rows of an a × b matrix, at column n: the running maximum from the accumulator's value. -/
theorem max_rows_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (n : Fin b) :
    multiReduction .maximumf [0] ⟨1, ![b]⟩ src acc h hφ hacc (ix1 n)
      = (Finset.univ : Finset (Fin a)).fold max (Ideal.ofBits φ acc) (fun r => src (ix2 r n)) :=
  (Ideal.multiReduction_maximumf_single src acc h hφ hacc (ix1 n)).trans
    (Finset.fold_congr fun r _ => congrArg src
      (funext fun ax => Fin.ext (by match ax with | ⟨0, _⟩ => rfl | ⟨1, _⟩ => rfl)))

end Cert.LibAxisReduce

end
-- ==== Proof.KernelBlock.lean ====
/-
  What the kernel body leaves in one output block, entry by entry.

  The body holds 5000 nodes at a time: block P0 of the features, block P1 of the neighbourhood means, the two weight
  matrices P2 and P3 (input-feature-major), the two biases P4 and P5, the scale P6 and the shift P7. Its stored block,
  which the generated value module names E8, is at entry (r, j) the layer's output for node r of the block at feature j:
  each matrix product into a zero accumulator is the sum over the 128 input features of the row entry times the weight
  entry (rounding to the narrower float format is the identity here), each bias is one row repeated over the nodes,
  each lane sum is the sum over the 128 features of node r's row, and each per-node column is repeated over the features.
-/
import proofs.«132902_j83167746719882_1_alg».proof.Proof.Gen.KernelIdeal.Value
import proofs.«132902_j83167746719882_1_alg».proof.Proof.NodeLayer
import proofs.«132902_j83167746719882_1_alg».proof.Proof.LibPlainDot
import proofs.«132902_j83167746719882_1_alg».proof.Proof.LibColumn
import proofs.«132902_j83167746719882_1_alg».proof.Proof.LibAxisReduce
import Idealize.ShloMosaic.Lib.ValueLayout

noncomputable section

open scoped BigOperators

namespace Cert.KernelIdeal.Block

open Cert.KernelIdeal Cert.KernelIdeal.Gen Idealize.ShloMosaic Idealize.ShloMosaic.ValueIdx Cert.NodeLayer

/-- One linear map with its bias at entry (r, j): Σ_k A(r,k) · W(k,j) + bias(j). -/
theorem dense_apply (A : FVec Ideal S5000x128 .bf16) (W : FVec Ideal S128x128 .bf16) (bv : FVec Ideal S128 .f32)
    (r : Fin 5000) (j : Fin 128) :
    addf (matmul dot_S5000x128_S128x128_S5000x128_1_0_0_1_n_n none A W (constant S5000x128 .f32 0x00000000#32))
        (broadcastTo S5000x128 (shapeCast S1x128 bv shapeCasts_S128_S1x128) broadcasts_S1x128_S5000x128) (ix2 r j)
      = (∑ k : Fin 128, A (ix2 r k) * W (ix2 k j)) + bv (ix1 j) :=
  congrArg₂ (· + ·) (Cert.LibPlainDot.matmul_zero_apply (M := 5000) (K := 128) (N := 128) none A W r j)
    ((broadcastTo_1b_ab_apply (a := 5000) (b := 128) _ broadcasts_S1x128_S5000x128 r j).trans
      (shapeCast_a_1a_apply (a := 128) bv shapeCasts_S128_S1x128 (0 : Fin 1) j))

/-- The activation before normalisation at entry (r, j) of the block. -/
theorem act_apply (P0 P1 : Vec Ideal S5000x128 .f32) (P2 P3 : Vec Ideal S128x128 .f32) (P4 P5 : Vec Ideal S128 .f32)
    (r : Fin 5000) (j : Fin 128) :
    k0_pay2 P0 P1 P2 P3 P4 P5 (ix2 r j)
      = act (fun k => P0 (ix2 r k)) (fun k => P1 (ix2 r k)) (fun k j => P2 (ix2 k j)) (fun k j => P3 (ix2 k j))
          (fun j => P4 (ix1 j)) (fun j => P5 (ix1 j)) j := by
  have e2 : shapeCast S128x128 P2 shapeCasts_S128x128_S128x128 = P2 := shapeCast_self P2 _
  have e3 : shapeCast S128x128 P3 shapeCasts_S128x128_S128x128 = P3 := shapeCast_self P3 _
  have e1 : shapeCast S5000x128 P1 shapeCasts_S5000x128_S5000x128 = P1 := shapeCast_self P1 _
  unfold k0_pay2 act
  rw [e1, e2, e3]
  exact congrArg₂ max
    (congrArg₂ (· + ·) (dense_apply (truncf .bf16 P0 bitsLt_bf16_f32) (truncf .bf16 P2 bitsLt_bf16_f32) P4 r j)
      (dense_apply (truncf .bf16 P1 bitsLt_bf16_f32) (truncf .bf16 P3 bitsLt_bf16_f32) P5 r j))
    Ideal.ofBits_zero_f32

/-- A node's feature sum: the lane sum of the block at node r is the sum of the 128 entries of row r. -/
theorem rowSum_apply (H : FVec Ideal S5000x128 .f32) (r : Fin 5000) :
    multiReduction .add [1] S5000 H 0x00000000#32 reduces_S5000x128_S5000 (.inl rfl) rfl (ix1 r)
      = ∑ l : Fin 128, H (ix2 r l) :=
  Cert.LibAxisReduce.add_cols_apply (a := 5000) (b := 128) H 0x00000000#32 reduces_S5000x128_S5000 (.inl rfl) rfl r

/-- The block centred: every entry of row r less the mean of row r (the per-node mean column repeated over the features). -/
theorem centred_apply (H : FVec Ideal S5000x128 .f32) (r : Fin 5000) (l : Fin 128) :
    subf H (broadcastTo S5000x128 (divf (shapeCast S5000x1
        (multiReduction .add [1] S5000 H 0x00000000#32 reduces_S5000x128_S5000 (.inl rfl) rfl) shapeCasts_S5000_S5000x1)
        (broadcast S5000x1 (Scalar.ofBits .f32 0x43000000#32))) broadcasts_S5000x1_S5000x128) (ix2 r l)
      = H (ix2 r l) - rowMean (fun l => H (ix2 r l)) :=
  congrArg (H (ix2 r l) - ·)
    ((Cert.LibColumn.broadcastTo_a1_ab_apply (a := 5000) (b := 128) _ broadcasts_S5000x1_S5000x128 r l).trans
      (congrArg (Ideal.div · width)
        ((Cert.LibColumn.shapeCast_a_a1_apply (a := 5000) _ shapeCasts_S5000_S5000x1 r (0 : Fin 1)).trans (rowSum_apply H r))))

/-- The normalisation of the block at entry (r, j), for any pre-normalisation block H, scale g and shift b. -/
theorem normalised_apply (H : FVec Ideal S5000x128 .f32) (g b : FVec Ideal S128 .f32) (r : Fin 5000) (j : Fin 128) :
    FloatOps.addf (FloatOps.mulf (FloatOps.mulf
        (FloatOps.subf (H (ix2 r j))
          (FloatOps.divf (multiReduction .add [1] S5000 H 0x00000000#32 reduces_S5000x128_S5000 (.inl rfl) rfl (ix1 r))
            (Scalar.ofBits .f32 0x43000000#32)))
        (FloatOps.rsqrt (FloatOps.addf
          (FloatOps.divf (multiReduction .add [1] S5000
              (mulf (subf H (broadcastTo S5000x128 (divf (shapeCast S5000x1
                  (multiReduction .add [1] S5000 H 0x00000000#32 reduces_S5000x128_S5000 (.inl rfl) rfl) shapeCasts_S5000_S5000x1)
                  (broadcast S5000x1 (Scalar.ofBits .f32 0x43000000#32))) broadcasts_S5000x1_S5000x128))
                (subf H (broadcastTo S5000x128 (divf (shapeCast S5000x1
                  (multiReduction .add [1] S5000 H 0x00000000#32 reduces_S5000x128_S5000 (.inl rfl) rfl) shapeCasts_S5000_S5000x1)
                  (broadcast S5000x1 (Scalar.ofBits .f32 0x43000000#32))) broadcasts_S5000x1_S5000x128)))
              0x00000000#32 reduces_S5000x128_S5000 (.inl rfl) rfl (ix1 r))
            (Scalar.ofBits .f32 0x43000000#32))
          (Scalar.ofBits .f32 0x3727C5AC#32)))) (g (ix1 j))) (b (ix1 j))
      = normalised (fun l => H (ix2 r l)) (fun l => g (ix1 l)) (fun l => b (ix1 l)) j := by
  have hs := rowSum_apply H r
  have hv := (rowSum_apply (mulf
      (subf H (broadcastTo S5000x128 (divf (shapeCast S5000x1
        (multiReduction .add [1] S5000 H 0x00000000#32 reduces_S5000x128_S5000 (.inl rfl) rfl) shapeCasts_S5000_S5000x1)
        (broadcast S5000x1 (Scalar.ofBits .f32 0x43000000#32))) broadcasts_S5000x1_S5000x128))
      (subf H (broadcastTo S5000x128 (divf (shapeCast S5000x1
        (multiReduction .add [1] S5000 H 0x00000000#32 reduces_S5000x128_S5000 (.inl rfl) rfl) shapeCasts_S5000_S5000x1)
        (broadcast S5000x1 (Scalar.ofBits .f32 0x43000000#32))) broadcasts_S5000x1_S5000x128))) r).trans
    (Finset.sum_congr rfl fun l _ => congrArg₂ (· * ·) (centred_apply H r l) (centred_apply H r l))
  unfold normalised
  exact congrArg₂ (· + ·)
    (congrArg₂ (· * ·)
      (congrArg₂ (· * ·)
        (congrArg (H (ix2 r j) - ·) (congrArg (Ideal.div · width) hs))
        (congrArg Ideal.rsqrt (congrArg (· + eps) (congrArg (Ideal.div · width) hv))))
      rfl)
    rfl

/-- THE BLOCK: what the body stores at entry (r, j) is the layer's output for node r of the block at feature j. -/
theorem block_apply (P0 P1 : Vec Ideal S5000x128 .f32) (P2 P3 : Vec Ideal S128x128 .f32) (P4 P5 P6 P7 : Vec Ideal S128 .f32)
    (r : Fin 5000) (j : Fin 128) :
    Cert.KernelIdeal.Value.E8 P0 P1 P2 P3 P4 P5 P6 P7 (ix2 r j) = layerAt (R := 5000) P0 P1 P2 P3 P4 P5 P6 P7 r j := by
  have i0 : Cert.KernelIdeal.Value.ix8_0 (ix2 r j) = ix2 r j :=
    funext fun a => match a with | ⟨0, _⟩ => rfl | ⟨1, _⟩ => rfl
  have i1 : Cert.KernelIdeal.Value.ix8_1 (ix2 r j) = ix1 r := funext fun a => match a with | ⟨0, _⟩ => rfl
  have i2 : Cert.KernelIdeal.Value.ix8_2 (ix2 r j) = ix1 r := funext fun a => match a with | ⟨0, _⟩ => rfl
  have i3 : Cert.KernelIdeal.Value.ix8_3 (ix2 r j) = ix1 j := funext fun a => match a with | ⟨0, _⟩ => rfl
  have i4 : Cert.KernelIdeal.Value.ix8_4 (ix2 r j) = ix1 j := funext fun a => match a with | ⟨0, _⟩ => rfl
  dsimp only [Cert.KernelIdeal.Value.E8]
  rw [i0, i1, i2, i3, i4]
  refine (normalised_apply (k0_pay2 P0 P1 P2 P3 P4 P5) P6 P7 r j).trans ?_
  unfold layerAt nodeOut
  exact congrArg (fun a => normalised a (fun l => P6 (ix1 l)) (fun l => P7 (ix1 l)) j)
    (funext fun l => act_apply P0 P1 P2 P3 P4 P5 r l)

end Cert.KernelIdeal.Block

end
-- ==== Proof.KernelArray.lean ====
/-
  From the kernel's blocks to its whole output array.

  The grid has twenty points; point t holds nodes 5000·t … 5000·t + 4999: its block of the features and of the
  neighbourhood means are those rows of the two arrays, while the weights, biases, scale and shift are the same whole
  arrays at every point. A node's output depends only on its own row of the features and of the neighbourhood means, so
  what point t writes back is exactly rows 5000·t … of the layer applied to the whole arrays; the twenty blocks are
  disjoint and cover all 100000 rows, so the output array ends as the layer of the arrays the region finds.
-/
import proofs.«132902_j83167746719882_1_alg».proof.Proof.Gen.KernelIdeal.Value
import proofs.«132902_j83167746719882_1_alg».proof.Proof.KernelBlock

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Cert.NodeLayer
open Idealize.ShloMosaic.Pipeline (Dat)

variable (m : (ℓ : Loc nD τ sig) → Buf (Elt Ideal) ℓ) (ρ : Dev nD → PrngReg)

theorem zero_off2 : (![0, 0] : Fin 2 → Nat) = fun _ => 0 := funext fun a => by fin_cases a <;> rfl
theorem zero_off1 : (![0] : Fin 1 → Nat) = fun _ => 0 := funext fun a => by fin_cases a; rfl

/-- A node's output only looks at its own two rows: two layers agree at (r, j) and (r', j) when row r of the one's
    features and neighbourhood means is row r' of the other's and the remaining arrays agree. -/
theorem layerAt_congr {R R' : ℕ} {X N : Mat R 128} {X' N' : Mat R' 128} {Ws Wa Ws' Wa' : Mat 128 128}
    {bs ba g b bs' ba' g' b' : Row 128} {r : Fin R} {r' : Fin R'} (j : Fin 128)
    (hx : ∀ k : Fin 128, X (ix2 r k) = X' (ix2 r' k)) (hn : ∀ k : Fin 128, N (ix2 r k) = N' (ix2 r' k))
    (hws : ∀ k j : Fin 128, Ws (ix2 k j) = Ws' (ix2 k j)) (hwa : ∀ k j : Fin 128, Wa (ix2 k j) = Wa' (ix2 k j))
    (hbs : ∀ j : Fin 128, bs (ix1 j) = bs' (ix1 j)) (hba : ∀ j : Fin 128, ba (ix1 j) = ba' (ix1 j))
    (hg : ∀ j : Fin 128, g (ix1 j) = g' (ix1 j)) (hb : ∀ j : Fin 128, b (ix1 j) = b' (ix1 j)) :
    layerAt X N Ws Wa bs ba g b r j = layerAt X' N' Ws' Wa' bs' ba' g' b' r' j := by
  unfold layerAt
  rw [funext hx, funext hn, funext fun k => funext (hws k), funext fun k => funext (hwa k), funext hbs, funext hba,
    funext hg, funext hb]

/-- The body's stored block, from the eight blocks it loads, is the layer over the 5000 nodes it holds. -/
theorem out_layer (x0 x1 : Vec Ideal S5000x128 .f32) (x2 x3 : Vec Ideal S128x128 .f32) (x4 x5 x6 x7 : Vec Ideal S128 .f32) :
    out0_8 x0 x1 x2 x3 x4 x5 x6 x7 = layer (R := 5000) x0 x1 x2 x3 x4 x5 x6 x7 := by
  unfold out0_8
  simp only [View.ld_unit_zero (S := S5000x128) zero_off2, View.ld_unit_zero (S := S128x128) zero_off2,
    View.ld_unit_zero (S := S128) zero_off1]
  funext y
  obtain ⟨r, j, rfl⟩ : ∃ (r : Fin 5000) (j : Fin 128), y = ix2 r j := ⟨y 0, y 1, eq_ix2 y⟩
  exact (Cert.KernelIdeal.Value.canon8_eq x0 x1 x2 x3 x4 x5 x6 x7 (ix2 r j)).trans
    (Cert.KernelIdeal.Block.block_apply x0 x1 x2 x3 x4 x5 x6 x7 r j)

/-- The output array as ONE function of the arrays the region finds (window by window, in the windows' order: the
    features, the neighbourhood means, the two transposed weights, the two biases, the scale, the shift): the layer over
    all 100000 nodes. -/
def G (c : Dev nD) : S100000x128.Idx → EReal :=
  layer (R := 100000) (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7))

/-- The printed index maps, decided over the twenty points: the two node-blocked inputs move with the output along the
    nodes and sit at column block 0; every other input stays at block 0; the output's node block is at most 19. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0
    ∧ win0_6.index t (0 : Fin 1) = 0 ∧ win0_7.index t (0 : Fin 1) = 0
    ∧ win0_8.index t (1 : Fin 2) = 0 ∧ win0_8.index t (0 : Fin 2) ≤ 19 :=
  (by decide +kernel : ∀ t : Fin grid0.N, _)

/-- Every node block is some point's. -/
theorem idx_onto : ∀ q : Fin 20, ∃ t : Fin cfg0.N, win0_8.index t = ![q.val, 0] :=
  (by decide +kernel : ∀ q : Fin 20, ∃ t : Fin grid0.N, win0_8.index t = ![q.val, 0])

/-- Row r of point t's block of a node-blocked array (the features) is row e of the array, e the node that the
    block's row r stands for. Stated for any array of the window's shape. -/
theorem read_x (t : Fin cfg0.N) (A : S100000x128.Idx → EReal) (r : Fin 5000) (k : Fin 128) (e : Fin 100000)
    (he : e.val = win0_8.index t (0 : Fin 2) * 5000 + r.val) :
    ((cfg0.win 0).blk t).view.read (Elt Ideal) A (ix2 r k) = A (ix2 e k) := by
  obtain ⟨f0, f1, -⟩ := idx_facts t
  have h : ((cfg0.win 0).blk t).view.emb (ix2 r k) = ix2 e k := by
    funext a; apply Fin.ext
    match a with
    | ⟨0, _⟩ => show win0_0.index t (0 : Fin 2) * 5000 + 1 * r.val = e.val; omega
    | ⟨1, _⟩ => show win0_0.index t (1 : Fin 2) * 128 + 1 * k.val = k.val; omega
  show A (((cfg0.win 0).blk t).view.emb (ix2 r k)) = A (ix2 e k)
  rw [h]

/-- The same for the second node-blocked window (the neighbourhood means). -/
theorem read_n (t : Fin cfg0.N) (A : S100000x128.Idx → EReal) (r : Fin 5000) (k : Fin 128) (e : Fin 100000)
    (he : e.val = win0_8.index t (0 : Fin 2) * 5000 + r.val) :
    ((cfg0.win 1).blk t).view.read (Elt Ideal) A (ix2 r k) = A (ix2 e k) := by
  obtain ⟨-, -, f0, f1, -⟩ := idx_facts t
  have h : ((cfg0.win 1).blk t).view.emb (ix2 r k) = ix2 e k := by
    funext a; apply Fin.ext
    match a with
    | ⟨0, _⟩ => show win0_1.index t (0 : Fin 2) * 5000 + 1 * r.val = e.val; omega
    | ⟨1, _⟩ => show win0_1.index t (1 : Fin 2) * 128 + 1 * k.val = k.val; omega
  show A (((cfg0.win 1).blk t).view.emb (ix2 r k)) = A (ix2 e k)
  rw [h]

/-- The two weight windows hold their whole arrays at every point. -/
theorem read_ws (t : Fin cfg0.N) (A : S128x128.Idx → EReal) (k j : Fin 128) :
    ((cfg0.win 2).blk t).view.read (Elt Ideal) A (ix2 k j) = A (ix2 k j) := by
  obtain ⟨-, -, -, -, f0, f1, -⟩ := idx_facts t
  have h : ((cfg0.win 2).blk t).view.emb (ix2 k j) = ix2 k j := by
    funext a; apply Fin.ext
    match a with
    | ⟨0, _⟩ => show win0_2.index t (0 : Fin 2) * 128 + 1 * k.val = k.val; omega
    | ⟨1, _⟩ => show win0_2.index t (1 : Fin 2) * 128 + 1 * j.val = j.val; omega
  show A (((cfg0.win 2).blk t).view.emb (ix2 k j)) = A (ix2 k j)
  rw [h]

theorem read_wa (t : Fin cfg0.N) (A : S128x128.Idx → EReal) (k j : Fin 128) :
    ((cfg0.win 3).blk t).view.read (Elt Ideal) A (ix2 k j) = A (ix2 k j) := by
  obtain ⟨-, -, -, -, -, -, f0, f1, -⟩ := idx_facts t
  have h : ((cfg0.win 3).blk t).view.emb (ix2 k j) = ix2 k j := by
    funext a; apply Fin.ext
    match a with
    | ⟨0, _⟩ => show win0_3.index t (0 : Fin 2) * 128 + 1 * k.val = k.val; omega
    | ⟨1, _⟩ => show win0_3.index t (1 : Fin 2) * 128 + 1 * j.val = j.val; omega
  show A (((cfg0.win 3).blk t).view.emb (ix2 k j)) = A (ix2 k j)
  rw [h]

/-- The four vector windows (the two biases, the scale, the shift) hold their whole arrays at every point. -/
theorem read_bs (t : Fin cfg0.N) (A : S128.Idx → EReal) (j : Fin 128) :
    ((cfg0.win 4).blk t).view.read (Elt Ideal) A (ix1 j) = A (ix1 j) := by
  obtain ⟨-, -, -, -, -, -, -, -, f0, -⟩ := idx_facts t
  have h : ((cfg0.win 4).blk t).view.emb (ix1 j) = ix1 j := by
    funext a; apply Fin.ext
    match a with
    | ⟨0, _⟩ => show win0_4.index t (0 : Fin 1) * 128 + 1 * j.val = j.val; omega
  show A (((cfg0.win 4).blk t).view.emb (ix1 j)) = A (ix1 j)
  rw [h]

theorem read_ba (t : Fin cfg0.N) (A : S128.Idx → EReal) (j : Fin 128) :
    ((cfg0.win 5).blk t).view.read (Elt Ideal) A (ix1 j) = A (ix1 j) := by
  obtain ⟨-, -, -, -, -, -, -, -, -, f0, -⟩ := idx_facts t
  have h : ((cfg0.win 5).blk t).view.emb (ix1 j) = ix1 j := by
    funext a; apply Fin.ext
    match a with
    | ⟨0, _⟩ => show win0_5.index t (0 : Fin 1) * 128 + 1 * j.val = j.val; omega
  show A (((cfg0.win 5).blk t).view.emb (ix1 j)) = A (ix1 j)
  rw [h]

theorem read_g (t : Fin cfg0.N) (A : S128.Idx → EReal) (j : Fin 128) :
    ((cfg0.win 6).blk t).view.read (Elt Ideal) A (ix1 j) = A (ix1 j) := by
  obtain ⟨-, -, -, -, -, -, -, -, -, -, f0, -⟩ := idx_facts t
  have h : ((cfg0.win 6).blk t).view.emb (ix1 j) = ix1 j := by
    funext a; apply Fin.ext
    match a with
    | ⟨0, _⟩ => show win0_6.index t (0 : Fin 1) * 128 + 1 * j.val = j.val; omega
  show A (((cfg0.win 6).blk t).view.emb (ix1 j)) = A (ix1 j)
  rw [h]

theorem read_b (t : Fin cfg0.N) (A : S128.Idx → EReal) (j : Fin 128) :
    ((cfg0.win 7).blk t).view.read (Elt Ideal) A (ix1 j) = A (ix1 j) := by
  obtain ⟨-, -, -, -, -, -, -, -, -, -, -, f0, -⟩ := idx_facts t
  have h : ((cfg0.win 7).blk t).view.emb (ix1 j) = ix1 j := by
    funext a; apply Fin.ext
    match a with
    | ⟨0, _⟩ => show win0_7.index t (0 : Fin 1) * 128 + 1 * j.val = j.val; omega
  show A (((cfg0.win 7).blk t).view.emb (ix1 j)) = A (ix1 j)
  rw [h]

/-- BLOCK t OF THE LAYER: for any eight arrays of the windows' shapes, the layer over the 5000 nodes of point t's blocks
    of them is point t's block of the layer over all 100000 nodes. -/
theorem blocks_of_layer (t : Fin cfg0.N) (A0 A1 : S100000x128.Idx → EReal) (A2 A3 : S128x128.Idx → EReal)
    (A4 A5 A6 A7 : S128.Idx → EReal) :
    (cfg0.win 8).cut (grid0.coords t) (layer (R := 5000) (((cfg0.win 0).blk t).view.read (Elt Ideal) A0)
        (((cfg0.win 1).blk t).view.read (Elt Ideal) A1)
        (((cfg0.win 2).blk t).view.read (Elt Ideal) A2)
        (((cfg0.win 3).blk t).view.read (Elt Ideal) A3)
        (((cfg0.win 4).blk t).view.read (Elt Ideal) A4)
        (((cfg0.win 5).blk t).view.read (Elt Ideal) A5)
        (((cfg0.win 6).blk t).view.read (Elt Ideal) A6)
        (((cfg0.win 7).blk t).view.read (Elt Ideal) A7))
      = ((cfg0.win 8).blk t).view.read (Elt Ideal) (layer (R := 100000) A0 A1 A2 A3 A4 A5 A6 A7) := by
  obtain ⟨-, -, -, -, -, -, -, -, -, -, -, -, f1, f0⟩ := idx_facts t
  funext y
  obtain ⟨r, j, rfl⟩ : ∃ (r : Fin 5000) (j : Fin 128), y = ix2 r j := ⟨y 0, y 1, eq_ix2 y⟩
  have hlt : win0_8.index t (0 : Fin 2) * 5000 + r.val < 100000 := by have := r.isLt; omega
  have hemb : ((cfg0.win 8).blk t).view.emb (ix2 r j)
      = ix2 (⟨win0_8.index t (0 : Fin 2) * 5000 + r.val, hlt⟩ : Fin 100000) j := by
    funext a; apply Fin.ext
    match a with
    | ⟨0, _⟩ => show win0_8.index t (0 : Fin 2) * 5000 + 1 * r.val = win0_8.index t (0 : Fin 2) * 5000 + r.val; omega
    | ⟨1, _⟩ => show win0_8.index t (1 : Fin 2) * 128 + 1 * j.val = j.val; omega
  show layerAt (R := 5000) (((cfg0.win 0).blk t).view.read (Elt Ideal) A0) (((cfg0.win 1).blk t).view.read (Elt Ideal) A1) (((cfg0.win 2).blk t).view.read (Elt Ideal) A2) (((cfg0.win 3).blk t).view.read (Elt Ideal) A3)
      (((cfg0.win 4).blk t).view.read (Elt Ideal) A4) (((cfg0.win 5).blk t).view.read (Elt Ideal) A5) (((cfg0.win 6).blk t).view.read (Elt Ideal) A6) (((cfg0.win 7).blk t).view.read (Elt Ideal) A7) r j
    = layer (R := 100000) A0 A1 A2 A3 A4 A5 A6 A7 (((cfg0.win 8).blk t).view.emb (ix2 r j))
  rw [hemb]
  exact layerAt_congr j (fun k => read_x t A0 r k _ rfl) (fun k => read_n t A1 r k _ rfl)
    (fun k j => read_ws t A2 k j) (fun k j => read_wa t A3 k j) (fun j => read_bs t A4 j) (fun j => read_ba t A5 j)
    (fun j => read_g t A6 j) (fun j => read_b t A7 j)

/-- WHAT POINT t WRITES BACK is block t of the layer of the arrays the region finds. -/
theorem flushed_eq (c : Dev nD) (t : Fin cfg0.N) :
    (dats m 0 c).flushed 8 t = ((cfg0.win 8).blk t).view.read (Elt Ideal) (G m c) := by
  rw [Cert.KernelIdeal.Value.flushed8, out_layer]
  unfold iblk G
  exact blocks_of_layer t (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))
    (V m c (Pipeline.arrRef spec0 6)) (V m c (Pipeline.arrRef spec0 7))

/-- An index is in point t's block iff each coordinate is in the block's range on its axis. -/
theorem mem_blk (t : Fin cfg0.N) (i : S100000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v24).slice (win0_8.rect t)).set ↔ _
  rw [View.set_slice_whole, Rect.mem_set_unit]
  exact Iff.rfl

/-- Every index of the output array is in the block of the point that holds its node: node n is in block n / 5000. -/
theorem cover (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  obtain ⟨t, ht⟩ := idx_onto ⟨(i 0).val / 5000, by omega⟩
  have q0 : win0_8.index t (0 : Fin 2) = (i 0).val / 5000 := congrFun ht 0
  have q1 : win0_8.index t (1 : Fin 2) = 0 := congrFun ht 1
  refine ⟨t, flush0_8 t, ?_⟩
  rw [mem_blk]
  intro a
  match a with
  | ⟨0, _⟩ =>
    show win0_8.index t (0 : Fin 2) * 5000 ≤ (i 0).val ∧ (i 0).val < win0_8.index t (0 : Fin 2) * 5000 + 5000
    omega
  | ⟨1, _⟩ =>
    show win0_8.index t (1 : Fin 2) * 128 ≤ (i 1).val ∧ (i 1).val < win0_8.index t (1 : Fin 2) * 128 + 128
    omega

/-- THE ARRAY after the run is the layer of the arrays the region finds. -/
theorem final (c : Dev nD) : (dats m 0 c).arrAt 8 cfg0.N = G m c :=
  (dats m 0 c).arrAt_eq_of_cover 8 (G m c) (fun t _ => flushed_eq m c t) cover

/-- The kernel's run re-posted: the result array at the layer of the region-entry arrays, the arguments unchanged. -/
theorem run : θ_run defs (onTc (τ := τ) (main (F := Ideal))) ⟨m, fun _ => 0, ρ⟩ fun r => ∀ c : Dev nD,
      r.2.mem ((c : Thread nD τ).loc main_v24) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.KernelIdeal.Whole

end
-- ==== Proof.RefLayer.lean ====
/-
  What the reference computes, entry by entry.

  The reference applies the same layer to all 100000 nodes at once. Read one operation at a time through the generated
  read-at-an-index lemmas, its result at entry (r, j) is the layer's output for node r at feature j, with the weights
  it transposes on the way (entry (k, j) of a transposed weight is entry (j, k) of the argument) and with the
  neighbourhood means as the stage that computes them, which is never opened: each host product is the sum over the
  128 input features, each host sum starts from a zero and adds the 128 entries of a row, each keepdims column is read
  at the node's row, each bias, scale and shift at the feature.
-/
import proofs.«132902_j83167746719882_1_alg».proof.Proof.Gen.ReferenceIdeal.Read
import proofs.«132902_j83167746719882_1_alg».proof.Proof.NodeLayer

noncomputable section

open scoped BigOperators

namespace Cert.ReferenceIdeal.Layer

open Cert.ReferenceIdeal Cert.ReferenceIdeal.Read Idealize.ShloMosaic Idealize.ShloMosaic.ValueIdx Cert.NodeLayer

/-- The node's own linear map with its bias at entry (r, j). -/
theorem self_apply (x0 : (⟨S100000x128, .f32⟩ : BufTy).Contents (Elt Ideal)) (x4 : (⟨S128x128, .f32⟩ : BufTy).Contents (Elt Ideal)) (x5 : (⟨S128, .f32⟩ : BufTy).Contents (Elt Ideal))
    (r : Fin 100000) (j : Fin 128) :
    val_main_v8 (F := Ideal) x0 x4 x5 (ix2 r j)
      = (∑ k : Fin 128, x0 (ix2 r k) * val_main_v4 (F := Ideal) x4 (ix2 k j)) + x5 (ix1 j) := by
  have hl : ∀ k : Fin 128, lidx_main_v5 (ix2 r j) k = ix2 r k :=
    fun k => funext fun a => match a with | ⟨0, _⟩ => rfl | ⟨1, _⟩ => rfl
  have hr : ∀ k : Fin 128, ridx_main_v5 (ix2 r j) k = ix2 k j :=
    fun k => funext fun a => match a with | ⟨0, _⟩ => rfl | ⟨1, _⟩ => rfl
  have hb : idx_main_v6 (idx_main_v7 (ix2 r j)) = ix1 j := funext fun a => match a with | ⟨0, _⟩ => rfl
  rw [val_main_v8_apply, val_main_v5_apply, val_main_v7_apply, val_main_v6_apply, hb]
  simp only [hl, hr]
  rfl

/-- The neighbourhood's linear map with its bias at entry (r, j): the left operand is the neighbourhood-mean stage. -/
theorem agg_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
    (r : Fin 100000) (j : Fin 128) :
    val_main_v31 (F := Ideal) x0 x1 x2 x3 (ix2 r j)
      = (∑ k : Fin 128, val_main_v26 (F := Ideal) x0 x1 (ix2 r k) * val_main_v27 (F := Ideal) x2 (ix2 k j)) + x3 (ix1 j) := by
  have hl : ∀ k : Fin 128, lidx_main_v28 (ix2 r j) k = ix2 r k :=
    fun k => funext fun a => match a with | ⟨0, _⟩ => rfl | ⟨1, _⟩ => rfl
  have hr : ∀ k : Fin 128, ridx_main_v28 (ix2 r j) k = ix2 k j :=
    fun k => funext fun a => match a with | ⟨0, _⟩ => rfl | ⟨1, _⟩ => rfl
  have hb : idx_main_v29 (idx_main_v30 (ix2 r j)) = ix1 j := funext fun a => match a with | ⟨0, _⟩ => rfl
  rw [val_main_v31_apply, val_main_v28_apply, val_main_v30_apply, val_main_v29_apply, hb]
  simp only [hl, hr]
  rfl

/-- The activation before normalisation at entry (r, j). -/
theorem act_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 100000) (j : Fin 128) :
    val_main_v33 (F := Ideal) x0 x1 x2 x3 x4 x5 (ix2 r j)
      = act (fun k => x0 (ix2 r k)) (fun k => val_main_v26 (F := Ideal) x0 x1 (ix2 r k))
          (fun k j => val_main_v4 (F := Ideal) x4 (ix2 k j)) (fun k j => val_main_v27 (F := Ideal) x2 (ix2 k j))
          (fun j => x5 (ix1 j)) (fun j => x3 (ix1 j)) j := by
  rw [val_main_v33_apply, val_main_v32_apply, self_apply, agg_apply, val_main_call0_v0_apply, val_main_call0_cst_apply]
  unfold act
  exact congrArg (max _) Ideal.ofBits_zero_f32

/-- The per-node mean column at node r. -/
theorem mean_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 100000) :
    val_main_v37 (F := Ideal) x0 x1 x2 x3 x4 x5 (ix2 r (0 : Fin 1)) = rowMean (fun l => val_main_v33 (F := Ideal) x0 x1 x2 x3 x4 x5 (ix2 r l)) := by
  have hi : ∀ k : Fin 128, idx_main_v34 (idx_main_v35 (ix2 r (0 : Fin 1))) k = ix2 r k :=
    fun k => funext fun a => match a with | ⟨0, _⟩ => rfl | ⟨1, _⟩ => rfl
  rw [val_main_v37_apply, val_main_v35_apply, val_main_v34_apply, val_main_v36_apply, val_main_cst_5_apply, val_main_cst_4_apply]
  simp only [hi]
  unfold rowMean width
  exact congrArg (Ideal.div · _) ((congrArg (· + _) Ideal.ofBits_zero_f32).trans (zero_add _))

/-- The centred activation at entry (r, l), as both subtractions of the reference compute it. -/
theorem centred_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 100000) (l : Fin 128) :
    val_main_v39 (F := Ideal) x0 x1 x2 x3 x4 x5 (ix2 r l)
      = val_main_v33 (F := Ideal) x0 x1 x2 x3 x4 x5 (ix2 r l) - rowMean (fun l => val_main_v33 (F := Ideal) x0 x1 x2 x3 x4 x5 (ix2 r l)) := by
  have hi : idx_main_v38 (ix2 r l) = ix2 r (0 : Fin 1) := funext fun a => match a with | ⟨0, _⟩ => rfl | ⟨1, _⟩ => rfl
  rw [val_main_v39_apply, val_main_v38_apply, hi, mean_apply]
  rfl

theorem centred_apply' (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 100000) (l : Fin 128) :
    val_main_v46 (F := Ideal) x0 x1 x2 x3 x4 x5 (ix2 r l)
      = val_main_v33 (F := Ideal) x0 x1 x2 x3 x4 x5 (ix2 r l) - rowMean (fun l => val_main_v33 (F := Ideal) x0 x1 x2 x3 x4 x5 (ix2 r l)) := by
  have hi : idx_main_v45 (ix2 r l) = ix2 r (0 : Fin 1) := funext fun a => match a with | ⟨0, _⟩ => rfl | ⟨1, _⟩ => rfl
  rw [val_main_v46_apply, val_main_v45_apply, hi, mean_apply]
  rfl

/-- The per-node mean squared deviation plus ε at node r. -/
theorem spread_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (r : Fin 100000) :
    val_main_v48 (F := Ideal) x0 x1 x2 x3 x4 x5 (ix2 r (0 : Fin 1))
      = Ideal.div (∑ l : Fin 128, (val_main_v33 (F := Ideal) x0 x1 x2 x3 x4 x5 (ix2 r l) - rowMean (fun l => val_main_v33 (F := Ideal) x0 x1 x2 x3 x4 x5 (ix2 r l)))
          * (val_main_v33 (F := Ideal) x0 x1 x2 x3 x4 x5 (ix2 r l) - rowMean (fun l => val_main_v33 (F := Ideal) x0 x1 x2 x3 x4 x5 (ix2 r l)))) width + eps := by
  have hi : ∀ k : Fin 128, idx_main_v41 (idx_main_v42 (ix2 r (0 : Fin 1))) k = ix2 r k :=
    fun k => funext fun a => match a with | ⟨0, _⟩ => rfl | ⟨1, _⟩ => rfl
  rw [val_main_v48_apply, val_main_v44_apply, val_main_v42_apply, val_main_v41_apply, val_main_v43_apply, val_main_cst_7_apply,
    val_main_cst_6_apply, val_main_v47_apply, val_main_cst_8_apply]
  simp only [hi, val_main_v40_apply, centred_apply]
  unfold width eps
  exact congrArg (· + _) (congrArg (Ideal.div · _) ((congrArg (· + _) Ideal.ofBits_zero_f32).trans (zero_add _)))

/-- THE REFERENCE: its result at entry (r, j) is the layer's output for node r at feature j. -/
theorem result_apply (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 x7 : (⟨S128, .f32⟩ : BufTy).Contents (Elt Ideal)) (r : Fin 100000) (j : Fin 128) :
    val_main_v57 (F := Ideal) x0 x1 x2 x3 x4 x5 x6 x7 (ix2 r j)
      = layerAt (R := 100000) x0 (val_main_v26 (F := Ideal) x0 x1) (val_main_v4 (F := Ideal) x4) (val_main_v27 (F := Ideal) x2)
          x5 x3 x6 x7 r j := by
  have hc : idx_main_v50 (ix2 r j) = ix2 r (0 : Fin 1) := funext fun a => match a with | ⟨0, _⟩ => rfl | ⟨1, _⟩ => rfl
  have hg : idx_main_v52 (idx_main_v53 (ix2 r j)) = ix1 j := funext fun a => match a with | ⟨0, _⟩ => rfl
  have hb : idx_main_v55 (idx_main_v56 (ix2 r j)) = ix1 j := funext fun a => match a with | ⟨0, _⟩ => rfl
  rw [val_main_v57_apply, val_main_v54_apply, val_main_v51_apply, centred_apply', val_main_v50_apply, hc, val_main_v49_apply,
    spread_apply, val_main_v53_apply, val_main_v52_apply, hg, val_main_v56_apply, val_main_v55_apply, hb]
  unfold layerAt nodeOut normalised
  simp only [act_apply]
  rfl

end Cert.ReferenceIdeal.Layer

end
-- ==== Proof.Bridge.lean ====
/-
  The two programs compute one function of the arguments.

  Before its region the kernel's program computes, on the host, the neighbourhood means (a gather of the source nodes'
  feature rows, two scatter-adds into the target nodes — the feature sums and the edge counts — and a quotient by the
  count plus a small constant) and the two transposed weights; the reference computes the very same three values by the
  very same operations. So the three arrays the region finds are the reference's stages of the same arguments, the
  neighbourhood means carried as ONE unopened function of the features and the edge list; and the kernel's output array,
  the layer of the arrays the region finds, is the reference's result, the layer of those stages.
-/
import proofs.«132902_j83167746719882_1_alg».proof.Proof.KernelArray
import proofs.«132902_j83167746719882_1_alg».proof.Proof.RefLayer
import Idealize.ShloMosaic.Lib.StableHlo.Run

noncomputable section

namespace Cert.Bridge

open Idealize.ShloMosaic Idealize.ShloMosaic.TcCoe Idealize.SL.Sem Idealize.ShloMosaic.ValueIdx Cert.NodeLayer

variable (m : (ℓ : Loc Cert.KernelIdeal.nD Cert.KernelIdeal.τ Cert.KernelIdeal.sig) → Buf (Elt Ideal) ℓ)

set_option maxHeartbeats 4000000 in
/-- The neighbourhood means the region finds are the reference's neighbourhood-mean stage of the features and edges. -/
theorem nbr_eq (c : Dev Cert.KernelIdeal.nD) :
    (Cert.KernelIdeal.Gen.V m c Cert.KernelIdeal.main_v21 : Cert.KernelIdeal.S100000x128.Idx → EReal)
      = Cert.ReferenceIdeal.Read.val_main_v26 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)) := by
  dsimp only [Cert.KernelIdeal.Gen.V, Cert.KernelIdeal.Gen.hostOps0]
  after_results_simp <;> rfl

set_option maxHeartbeats 4000000 in
/-- The node's own weight as the region finds it: the argument transposed, the reference's stage. -/
theorem wself_eq (c : Dev Cert.KernelIdeal.nD) :
    (Cert.KernelIdeal.Gen.V m c Cert.KernelIdeal.main_v22 : Cert.KernelIdeal.S128x128.Idx → EReal)
      = Cert.ReferenceIdeal.Read.val_main_v4 (F := Ideal) (m ((c : Thread Cert.KernelIdeal.nD Cert.KernelIdeal.τ).loc Cert.KernelIdeal.main_arg4)) := by
  dsimp only [Cert.KernelIdeal.Gen.V, Cert.KernelIdeal.Gen.hostOps0]
  after_results_simp <;> rfl

set_option maxHeartbeats 4000000 in
/-- The neighbourhood's weight as the region finds it. -/
theorem wagg_eq (c : Dev Cert.KernelIdeal.nD) :
    (Cert.KernelIdeal.Gen.V m c Cert.KernelIdeal.main_v23 : Cert.KernelIdeal.S128x128.Idx → EReal)
      = Cert.ReferenceIdeal.Read.val_main_v27 (F := Ideal) (m ((c : Thread Cert.KernelIdeal.nD Cert.KernelIdeal.τ).loc Cert.KernelIdeal.main_arg2)) := by
  dsimp only [Cert.KernelIdeal.Gen.V, Cert.KernelIdeal.Gen.hostOps0]
  after_results_simp <;> rfl

/-- The reference's result is the layer of its stages, as a whole array. -/
theorem ref_eq (x0 : (⟨Cert.ReferenceIdeal.S100000x128, .f32⟩ : BufTy).Contents (Elt Ideal))
    (x1 : (⟨Cert.ReferenceIdeal.S2x1600000, .i32⟩ : BufTy).Contents (Elt Ideal))
    (x2 : (⟨Cert.ReferenceIdeal.S128x128, .f32⟩ : BufTy).Contents (Elt Ideal))
    (x3 : (⟨Cert.ReferenceIdeal.S128, .f32⟩ : BufTy).Contents (Elt Ideal))
    (x4 : (⟨Cert.ReferenceIdeal.S128x128, .f32⟩ : BufTy).Contents (Elt Ideal))
    (x5 x6 x7 : (⟨Cert.ReferenceIdeal.S128, .f32⟩ : BufTy).Contents (Elt Ideal)) :
    Cert.ReferenceIdeal.Read.val_main_v57 (F := Ideal) x0 x1 x2 x3 x4 x5 x6 x7
      = layer (R := 100000) x0 (Cert.ReferenceIdeal.Read.val_main_v26 (F := Ideal) x0 x1)
          (Cert.ReferenceIdeal.Read.val_main_v4 (F := Ideal) x4) (Cert.ReferenceIdeal.Read.val_main_v27 (F := Ideal) x2)
          x5 x3 x6 x7 := by
  funext i
  obtain ⟨r, j, rfl⟩ : ∃ (r : Fin 100000) (j : Fin 128), i = ix2 r j := ⟨i 0, i 1, eq_ix2 i⟩
  exact Cert.ReferenceIdeal.Layer.result_apply x0 x1 x2 x3 x4 x5 x6 x7 r j

/-- The kernel's output array is that same layer of the reference's stages, of the kernel's own arguments. -/
theorem kernel_eq (c : Dev Cert.KernelIdeal.nD) :
    Cert.KernelIdeal.Whole.G m c
      = layer (R := 100000) (m ((c : Thread Cert.KernelIdeal.nD Cert.KernelIdeal.τ).loc Cert.KernelIdeal.main_arg0))
          (Cert.ReferenceIdeal.Read.val_main_v26 (F := Ideal) (m ((c : Thread Cert.KernelIdeal.nD Cert.KernelIdeal.τ).loc Cert.KernelIdeal.main_arg0)) (m ((c : Thread Cert.KernelIdeal.nD Cert.KernelIdeal.τ).loc Cert.KernelIdeal.main_arg1)))
          (Cert.ReferenceIdeal.Read.val_main_v4 (F := Ideal) (m ((c : Thread Cert.KernelIdeal.nD Cert.KernelIdeal.τ).loc Cert.KernelIdeal.main_arg4)))
          (Cert.ReferenceIdeal.Read.val_main_v27 (F := Ideal) (m ((c : Thread Cert.KernelIdeal.nD Cert.KernelIdeal.τ).loc Cert.KernelIdeal.main_arg2)))
          (m ((c : Thread Cert.KernelIdeal.nD Cert.KernelIdeal.τ).loc Cert.KernelIdeal.main_arg5)) (m ((c : Thread Cert.KernelIdeal.nD Cert.KernelIdeal.τ).loc Cert.KernelIdeal.main_arg3)) (m ((c : Thread Cert.KernelIdeal.nD Cert.KernelIdeal.τ).loc Cert.KernelIdeal.main_arg6)) (m ((c : Thread Cert.KernelIdeal.nD Cert.KernelIdeal.τ).loc Cert.KernelIdeal.main_arg7)) := by
  unfold Cert.KernelIdeal.Whole.G
  rw [nbr_eq m c, wself_eq m c, wagg_eq m c, Cert.KernelIdeal.Gen.V_main_arg0 m c, Cert.KernelIdeal.Gen.V_main_arg5 m c,
    Cert.KernelIdeal.Gen.V_main_arg3 m c, Cert.KernelIdeal.Gen.V_main_arg6 m c, Cert.KernelIdeal.Gen.V_main_arg7 m c]

end Cert.Bridge

end
-- ==== Proof.lean ====
/-
  A graph layer with mean aggregation and layer normalisation, as a gridded kernel and as a plain host program: the two
  end with the same result on the extended reals.

  For 100000 nodes with 128 features and 1600000 directed edges, both programs form the mean of each node's incoming
  neighbours' feature rows (feature sums and edge counts by scatter-add, the quotient by the count plus a small
  constant), apply one linear map to the node's own row and another to that mean, add the two, clip below at zero, and
  normalise each node's row to mean zero and unit mean square (plus ε), with a learned scale and shift. The kernel's
  program does the neighbourhood means and the two weight transposes on the host and the rest inside a region of
  twenty grid points of 5000 nodes each; the reference does everything on the host.

  The claim's parts. Each program terminates without a fault and leaves its arguments as they were: for the two kernel
  programs by their generated frame proofs, for the reference by its generated run. The idealized kernel differs from
  the printed one in nothing (no rewrite was applied), so that part is trivially true. The two idealized programs end
  with equal results: the kernel's output array is the layer of the arrays its region finds (from the blocks its grid
  points write, which are disjoint and cover the array), those arrays are the reference's own stages of the same
  arguments — the neighbourhood means as one unopened function of the features and the edge list —, and the
  reference's result is the same layer of those stages, read one operation at a time. The only facts about numbers used
  are that a product into a zero accumulator and a host product are the same sum over the contracted index, that a lane
  sum and a host sum from zero are the same sum over a row, and that a change of float format is the identity; none
  needs the inputs to be finite, so the precondition is not opened.
-/
import proofs.«132902_j83167746719882_1_alg».proof.Defs
import proofs.«132902_j83167746719882_1_alg».proof.Proof.Gen.Kernel
import proofs.«132902_j83167746719882_1_alg».proof.Proof.Gen.Kernel.Skeleton
import proofs.«132902_j83167746719882_1_alg».proof.Proof.Gen.Kernel.Launch
import proofs.«132902_j83167746719882_1_alg».proof.Proof.Gen.Kernel.Points
import proofs.«132902_j83167746719882_1_alg».proof.Proof.Gen.Kernel.Frame
import proofs.«132902_j83167746719882_1_alg».proof.Proof.Gen.KernelIdeal
import proofs.«132902_j83167746719882_1_alg».proof.Proof.Gen.KernelIdeal.Skeleton
import proofs.«132902_j83167746719882_1_alg».proof.Proof.Gen.KernelIdeal.Launch
import proofs.«132902_j83167746719882_1_alg».proof.Proof.Gen.KernelIdeal.Points
import proofs.«132902_j83167746719882_1_alg».proof.Proof.Gen.KernelIdeal.Frame
import proofs.«132902_j83167746719882_1_alg».proof.Proof.Gen.ReferenceIdeal
import proofs.«132902_j83167746719882_1_alg».proof.Proof.Gen.Pre_finite_inputs
import proofs.«132902_j83167746719882_1_alg».proof.Proof.Gen.KernelIdeal.Value
import proofs.«132902_j83167746719882_1_alg».proof.Proof.Gen.ReferenceIdeal.Run
import proofs.«132902_j83167746719882_1_alg».proof.Proof.Gen.ReferenceIdeal.Read
import proofs.«132902_j83167746719882_1_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs to the end, nothing faulting, its arguments unchanged. -/
theorem frame_kernel : Cert.frame_Kernel := fun m ρ _ => Cert.Kernel.Gen.frame m ρ

/-- The idealized kernel program likewise. -/
theorem frame_kernelIdeal : Cert.frame_KernelIdeal := fun m ρ _ => Cert.KernelIdeal.Gen.frame m ρ

/-- The reference likewise: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten on the way to its idealization: nothing to preserve. -/
theorem preserves : Cert.preserves_Kernel_KernelIdeal := trivial

/-- From memories that agree on the arguments, the kernel's result array ends as the layer of the arrays its region
    finds, the reference's as the layer of its stages; these are one function of the arguments. -/
theorem algebraic : Cert.algebraic_KernelIdeal_ReferenceIdeal := by
  intro m ρ m' ρ' _ hagree
  refine ⟨Cert.KernelIdeal.Whole.G m, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v57_eq, Cert.Bridge.ref_eq, a0, a1, a2, a3, a4, a5, a6, a7]
  exact (Cert.Bridge.kernel_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
